-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x12x32768 : Shape := ⟨3, ![128, 12, 32768]⟩
abbrev S128x12 : Shape := ⟨2, ![128, 12]⟩
abbrev S_ : Shape := ⟨0, ![]⟩

class Facts : Prop where
  bcast_S_S128x12x32768 : S_.BroadcastsInDim S128x12x32768 (![] : Fin 0 → Fin S128x12x32768.rank)
  reducesTo_S128x12x32768_S_d0_1_2 : S128x12x32768.ReducesTo [0, 1, 2] S_
  h_S_ : 0 < S_.numel

variable [Facts]

def fn {F : FTy → Type} [FloatOps F] (main_arg0 : FVec F S128x12x32768 .f32) (main_arg1 : IVec S128x12 32) : IVec S_ 1 :=
  let main_v0 : FVec F S128x12x32768 .f32 := Host.absf main_arg0
  let main_cst : FVec F S_ .f32 := constant S_ .f32 0x7F800000#32
  let main_v1 : FVec F S128x12x32768 .f32 := broadcastInDim S128x12x32768 ![] bcast_S_S128x12x32768 main_cst
  let main_v2 : IVec S128x12x32768 1 := cmpf .olt main_v0 main_v1
  let main_c : IVec S_ 1 := constantI S_ 1 1#1
  let main_v3 : IVec S_ 1 := (fun x v => Host.reduce IntOp.andi x v reducesTo_S128x12x32768_S_d0_1_2 h_S_) main_v2 main_c
  main_v3
-- ==== Kernel.lean ====
abbrev S128x12x32768 : Shape := ⟨3, ![128, 12, 32768]⟩
abbrev S128x12 : Shape := ⟨2, ![128, 12]⟩
abbrev S1536 : Shape := ⟨1, ![1536]⟩
abbrev S_ : Shape := ⟨0, ![]⟩
abbrev S1536x1 : Shape := ⟨2, ![1536, 1]⟩
abbrev S1536x32768 : Shape := ⟨2, ![1536, 32768]⟩
abbrev S256x4096 : Shape := ⟨2, ![256, 4096]⟩
abbrev S256x1 : Shape := ⟨2, ![256, 1]⟩

abbrev nBuf : Space → Nat
  | .hbm => 29
  | .vmem => 5
  | .smem => 0
  | _ => 0

abbrev bufTy : (tb : Table) → Fin (tcTables nBuf tb) → BufTy
  | .hbm, ⟨0, _⟩ => ⟨S128x12x32768, .f32⟩
  | .hbm, ⟨1, _⟩ => ⟨S128x12, .i32⟩
  | .hbm, ⟨2, _⟩ => ⟨S1536, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S1536, .i32⟩
  | .hbm, ⟨10, _⟩ => ⟨S1536, .i32⟩
  | .hbm, ⟨11, _⟩ => ⟨S_, .i32⟩
  | .hbm, ⟨12, _⟩ => ⟨S1536, .i32⟩
  | .hbm, ⟨13, _⟩ => ⟨S1536, .i1⟩
  | .hbm, ⟨14, _⟩ => ⟨S_, .i32⟩
  | .hbm, ⟨15, _⟩ => ⟨S1536, .i32⟩
  | .hbm, ⟨16, _⟩ => ⟨S1536, .i1⟩
  | .hbm, ⟨17, _⟩ => ⟨S_, .i32⟩
  | .hbm, ⟨18, _⟩ => ⟨S_, .i1⟩
  | .hbm, ⟨19, _⟩ => ⟨S1536, .i1⟩
  | .hbm, ⟨20, _⟩ => ⟨S1536, .i1⟩
  | .hbm, ⟨21, _⟩ => ⟨S1536, .i1⟩
  | .hbm, ⟨22, _⟩ => ⟨S1536, .i32⟩
  | .hbm, ⟨23, _⟩ => ⟨S1536, .i32⟩
  | .hbm, ⟨24, _⟩ => ⟨S1536, .i32⟩
  | .hbm, ⟨25, _⟩ => ⟨S1536x1, .i32⟩
  | .hbm, ⟨26, _⟩ => ⟨S1536x32768, .f32⟩
  | .hbm, ⟨27, _⟩ => ⟨S1536x32768, .f32⟩
  | .hbm, ⟨28, _⟩ => ⟨S128x12x32768, .f32⟩
  | .local _ .vmem, ⟨0, _⟩ => ⟨S256x4096, .f32⟩
  | .local _ .vmem, ⟨1, _⟩ => ⟨S256x4096, .f32⟩
  | .local _ .vmem, ⟨2, _⟩ => ⟨S256x1, .i32⟩
  | .local _ .vmem, ⟨3, _⟩ => ⟨S256x4096, .f32⟩
  | .local _ .vmem, ⟨4, _⟩ => ⟨S256x4096, .f32⟩
  | _, _ => ⟨S128x12x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S128x12_S1536 : S128x12.ShapeCasts S1536
  bcast_S_S1536 : S_.BroadcastsInDim S1536 (![] : Fin 0 → Fin S1536.rank)
  shapeCasts_S1536_S1536x1 : S1536.ShapeCasts S1536x1
  shapeCasts_S128x12x32768_S1536x32768 : S128x12x32768.ShapeCasts S1536x32768
  iota_S256x4096_d1_w32 : S256x4096.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S1536x32768_S128x12x32768 : S1536x32768.ShapeCasts S128x12x32768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S1536x32768.size a
  hwx0_0 : ∀ i : grid0.Coords, EltTy.bits .f32 = 32 ∨ (Rect.block (s := S1536x32768) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S1536x1.size a
  hwx0_1 : ∀ i : grid0.Coords, EltTy.bits .i32 = 32 ∨ (Rect.block (s := S1536x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S1536x32768.size a
  hwx0_2 : ∀ i : grid0.Coords, EltTy.bits .f32 = 32 ∨ (Rect.block (s := S1536x32768) S256x4096.size (cc0_transform_2 i) (hinb0_2 i)).WholeWords (EltTy.packing .f32)

variable [Facts₀]

abbrev win0_0 : Pipeline.Window sig grid0 :=
  Pipeline.Window.ofSpec (Memref.whole main_v3) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x12x32768 : Shape := ⟨3, ![128, 12, 32768]⟩
abbrev S128x12 : Shape := ⟨2, ![128, 12]⟩
abbrev S32768 : Shape := ⟨1, ![32768]⟩
abbrev S1x1x32768 : Shape := ⟨3, ![1, 1, 32768]⟩
abbrev S128x12x1 : Shape := ⟨3, ![128, 12, 1]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S128x12x32768, .f32⟩
  | .hbm, ⟨1, _⟩ => ⟨S128x12, .i32⟩
  | .hbm, ⟨2, _⟩ => ⟨S32768, .i32⟩
  | .hbm, ⟨3, _⟩ => ⟨S1x1x32768, .i32⟩
  | .hbm, ⟨4, _⟩ => ⟨S128x12x1, .i32⟩
  | .hbm, ⟨5, _⟩ => ⟨S128x12x32768, .i32⟩
  | .hbm, ⟨6, _⟩ => ⟨S128x12x32768, .i32⟩
  | .hbm, ⟨7, _⟩ => ⟨S128x12x32768, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S128x12x32768, .i32⟩
  | .hbm, ⟨15, _⟩ => ⟨S128x12x32768, .i32⟩
  | .hbm, ⟨16, _⟩ => ⟨S_, .i32⟩
  | .hbm, ⟨17, _⟩ => ⟨S128x12x32768, .i32⟩
  | .hbm, ⟨18, _⟩ => ⟨S128x12x32768, .i1⟩
  | .hbm, ⟨19, _⟩ => ⟨S_, .i32⟩
  | .hbm, ⟨20, _⟩ => ⟨S128x12x32768, .i32⟩
  | .hbm, ⟨21, _⟩ => ⟨S128x12x32768, .i1⟩
  | .hbm, ⟨22, _⟩ => ⟨S_, .i32⟩
  | .hbm, ⟨23, _⟩ => ⟨S_, .i1⟩
  | .hbm, ⟨24, _⟩ => ⟨S128x12x32768, .i1⟩
  | .hbm, ⟨25, _⟩ => ⟨S128x12x32768, .i1⟩
  | .hbm, ⟨26, _⟩ => ⟨S128x12x32768, .i1⟩
  | .hbm, ⟨27, _⟩ => ⟨S128x12x32768, .i32⟩
  | .hbm, ⟨28, _⟩ => ⟨S128x12x32768, .i32⟩
  | .hbm, ⟨29, _⟩ => ⟨S128x12x32768, .i32⟩
  | .hbm, ⟨30, _⟩ => ⟨S_, .i32⟩
  | .hbm, ⟨31, _⟩ => ⟨S128x12x32768, .i32⟩
  | .hbm, ⟨32, _⟩ => ⟨S128x12x32768, .i1⟩
  | .hbm, ⟨33, _⟩ => ⟨S_, .f32⟩
  | .hbm, ⟨34, _⟩ => ⟨S128x12x32768, .f32⟩
  | .hbm, ⟨35, _⟩ => ⟨S128x12x32768, .f32⟩
  | _, _ => ⟨S128x12x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_c_0 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_call1_v0 : Ref sig .tc := ⟨.hbm, 34, rfl⟩
abbrev main_v9 : Ref sig .tc := ⟨.hbm, 35, rfl⟩

abbrev nD : Nat := 1
abbrev τ : Topo := Topo.v7x

variable {F : FTy → Type} [FloatOps F]

class Facts₀ : Prop where
  bcast_S32768_S1x1x32768_2 : S32768.BroadcastsInDim S1x1x32768 (![2] : Fin 1 → Fin S1x1x32768.rank)
  bcast_S128x12_S128x12x1_0_1 : S128x12.BroadcastsInDim S128x12x1 (![0, 1] : Fin 2 → Fin S128x12x1.rank)
  bcast_S1x1x32768_S128x12x32768_0_1_2 : S1x1x32768.BroadcastsInDim S128x12x32768 (![0, 1, 2] : Fin 3 → Fin S128x12x32768.rank)
  bcast_S128x12x1_S128x12x32768_0_1_2 : S128x12x1.BroadcastsInDim S128x12x32768 (![0, 1, 2] : Fin 3 → Fin S128x12x32768.rank)
  bcast_S_S128x12x32768 : S_.BroadcastsInDim S128x12x32768 (![] : Fin 0 → Fin S128x12x32768.rank)

variable [Facts₀]

class Facts : Prop extends Facts₀ where

variable [Facts]
-- ==== Proof.Spec.lean ====
/-
  The circular time mask as ONE function of the two argument arrays.

  For a signal `x` of shape [128, 12, 32768] and a start word `st (a, b)` per row `(a, b)`, position `l` of the row
  survives exactly when its circular offset from the start, `(l - st (a, b)) mod 32768`, is at least 8192 (a quarter of
  the row is zeroed). The offset is computed on 32-bit words: the difference wraps modulo 2^32, and the floor
  remainder by 32768 is the truncated remainder with the divisor added back when it is negative (`wrap`).
-/
import Idealize.ShloMosaic.PureOps
import Idealize.ShloMosaic.PureOps.Ideal
import Idealize.ShloMosaic.Lib.ValueIdx

noncomputable section

namespace Cert.TimeMask

open Idealize.ShloMosaic Idealize.ShloMosaic.ValueIdx

/-- The signal's shape and the starts' shape. -/
abbrev SX : Shape := ⟨3, ![128, 12, 32768]⟩
abbrev SS : Shape := ⟨2, ![128, 12]⟩

/-- The divisor the floor-remainder chain divides by: the row length 32768, guarded against zero. -/
def modulus : BitVec 32 := Scalar.select (IntOp.cmpi .eq (32768#32) 0#32) 1#32 32768#32

/-- The floor remainder of a 32-bit word by the row length, as the host computes it: the truncated remainder `r`,
    plus the divisor when `r` is nonzero and its sign differs from the divisor's. -/
def wrap (x : BitVec 32) : BitVec 32 :=
  Scalar.select
    (IntOp.andi (IntOp.cmpi .ne (IntOp.cmpi .slt (IntOp.remsi .host x modulus) 0#32) (IntOp.cmpi .slt modulus 0#32))
      (IntOp.cmpi .ne (IntOp.remsi .host x modulus) 0#32))
    (IntOp.addi (IntOp.remsi .host x modulus) modulus) (IntOp.remsi .host x modulus)

/-- The kernel's one-step fixup of a difference of two words of `[0, 32768)`: add the row length when the
    difference is negative. -/
def fixup (p s : BitVec 32) : BitVec 32 :=
  Scalar.select (IntOp.cmpi .slt (IntOp.subi p s) 0#32) (IntOp.addi (IntOp.subi p s) 32768#32) (IntOp.subi p s)

/-- Position `l` survives the mask that starts at `s`: its circular offset is at least a quarter row. -/
def keep (l : ℕ) (s : BitVec 32) : BitVec 1 :=
  IntOp.cmpi .sge (wrap (IntOp.subi (BitVec.ofNat 32 l) s)) 8192#32

/-- The masked signal at `(a, b, l)`. -/
def maskAt (x : FVec Ideal SX .f32) (st : IVec SS 32) (a : Fin 128) (b : Fin 12) (l : Fin 32768) : Ideal .f32 :=
  Scalar.select (keep l.val (st (ix2 a b))) (x (ix3 a b l)) (Ideal.ofBits .f32 0x00000000#32)

/-- The masked signal. -/
def G (x : FVec Ideal SX .f32) (st : IVec SS 32) : FVec Ideal SX .f32 :=
  fun i => maskAt x st (i 0) (i 1) (i 2)

theorem G_apply (x : FVec Ideal SX .f32) (st : IVec SS 32) (a : Fin 128) (b : Fin 12) (l : Fin 32768) :
    G x st (ix3 a b l) = maskAt x st a b l := rfl

end Cert.TimeMask

end
-- ==== Proof.LibBatchForms.lean ====
/-
  Forms of a batched matrix product and of the reshapes around it, read at an index, for any extents.
  * A batched product `[B, n, k] × [B, k, h]` (the batch on the leading axes, the left operand's last axis contracted with
    the right operand's middle axis) onto a zero accumulator is, at the extended reals, the sum over the contracted
    coordinate of the products of the entries of the same batch.
  * An `[a, b, c]` array with its two leading axes merged into one axis of `a · b` rows reads, at row `p · b + q`, the
    entry `(p, q)`; the cast back splits row `p · b + q` into `(p, q)`.
  * A `[1, 1, c]` array broadcast over `[a, b, c]` reads its one row at the last coordinate.
-/
import Idealize.ShloMosaic.Lib.Pipeline.Value
import Idealize.ShloMosaic.Lib.ValueIdx
import Idealize.ShloMosaic.PureOps.Ideal.Laws

noncomputable section

namespace Cert.LibBatchForms

open Idealize.ShloMosaic Idealize.ShloMosaic.ValueIdx
open scoped BigOperators

variable {α : Type}

/-- Merging the two leading axes: the `[a · b, c]` view of an `[a, b, c]` array reads, at row `r = p · b + q` and
    column `f`, the entry `(p, q, f)` (both have row-major position `(p · b + q) · c + f`). -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (f : Fin c) (r : Fin n)
    (hr : r.val = p.val * b + q.val) :
    shapeCast ⟨2, ![n, c]⟩ x h (ix2 r f) = x (ix3 p q f) :=
  shapeCast_apply x h _ _ (by
    rw [Shape.rowMajor_val_three, Shape.rowMajor_val_two]
    show (p.val * b + q.val) * c + f.val = r.val * c + f.val
    rw [hr])

/-- Splitting the leading axis: the `[a, b, c]` view of an `[a · b, c]` array reads, at `(p, q, f)`, row
    `r = p · b + q` at column `f`. -/
theorem shapeCast_split_apply {a b c n : ℕ} (x : (⟨2, ![n, c]⟩ : Shape).Idx → α)
    (h : (⟨2, ![n, c]⟩ : Shape).ShapeCasts ⟨3, ![a, b, c]⟩) (p : Fin a) (q : Fin b) (f : Fin c) (r : Fin n)
    (hr : r.val = p.val * b + q.val) :
    shapeCast ⟨3, ![a, b, c]⟩ x h (ix3 p q f) = x (ix2 r f) :=
  shapeCast_apply x h _ _ (by
    rw [Shape.rowMajor_val_two, Shape.rowMajor_val_three]
    show r.val * c + f.val = (p.val * b + q.val) * c + f.val
    rw [hr])

/-- A `[1, 1, c]` array broadcast over `[a, b, c]` reads, at `(p, q, f)`, its one row at `f`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (f : Fin c) :
    broadcastTo ⟨3, ![a, b, c]⟩ v h (ix3 p q f) = v (ix3 (0 : Fin 1) (0 : Fin 1) f) := by
  refine broadcastTo_apply v h (ix3 p q f) (ix3 (0 : Fin 1) (0 : Fin 1) f) fun ax => ?_
  match ax with
  | ⟨0, _⟩ => rfl
  | ⟨1, _⟩ => rfl
  | ⟨2, _⟩ =>
    show f.val = if c = 1 then 0 else f.val
    split
    · have := f.isLt; omega
    · rfl

/-- The batched product of `[B, n, k]` by `[B, k, h]` (batch axis 0 of both, the left operand's axis 2 contracted with
    the right operand's axis 1) onto the zero accumulator, read at `(b, i, j)`: `∑ c, A (b, i, c) · M (b, c, j)`.
    `w` is the record's well-formedness, which a program states. -/
theorem batchMatmul_zero_apply {B n k h : ℕ} {φ₁ φ₂ : FTy}
    (w : DotDims.WF ⟨3, ![B, n, k]⟩ ⟨3, ![B, k, h]⟩ ⟨3, ![B, n, h]⟩ [2] [1] [1] [2] [0] [0])
    (prec : Option ContractPrecision) (A : FVec Ideal ⟨3, ![B, n, k]⟩ φ₁) (M : FVec Ideal ⟨3, ![B, k, h]⟩ φ₂)
    (b : Fin B) (i : Fin n) (j : Fin h) :
    matmul (⟨[2], [1], [1], [2], [0], [0], w⟩ : DotDims ⟨3, ![B, n, k]⟩ ⟨3, ![B, k, h]⟩ ⟨3, ![B, n, h]⟩) prec A M
        (constant (F := Ideal) ⟨3, ![B, n, h]⟩ .f32 0x00000000#32) (ix3 b i j)
      = ∑ c : Fin k, A (ix3 b i c) * M (ix3 b c j) := by
  show FloatOps.matmul _ prec A M _ (ix3 b i j) = _
  rw [Ideal.matmul_constant_zero_apply,
    ← Equiv.sum_comp (contrEquiv1
      (⟨[2], [1], [1], [2], [0], [0], w⟩ : DotDims ⟨3, ![B, n, k]⟩ ⟨3, ![B, k, h]⟩ ⟨3, ![B, n, h]⟩) k rfl rfl).symm]
  refine Finset.sum_congr rfl fun c _ => ?_
  have c2 := contrEquiv1_symm_val
    (⟨[2], [1], [1], [2], [0], [0], w⟩ : DotDims ⟨3, ![B, n, k]⟩ ⟨3, ![B, k, h]⟩ ⟨3, ![B, n, h]⟩) k rfl rfl c
  have l2 : (⟨[2], [1], [1], [2], [0], [0], w⟩ : DotDims ⟨3, ![B, n, k]⟩ ⟨3, ![B, k, h]⟩ ⟨3, ![B, n, h]⟩).lhsIdx (ix3 b i j)
      ((contrEquiv1 _ k rfl rfl).symm c) = ix3 b i c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [1], [1], [2], [0], [0], w⟩ : DotDims ⟨3, ![B, n, k]⟩ ⟨3, ![B, k, h]⟩ ⟨3, ![B, n, h]⟩).rhsIdx (ix3 b i j)
      ((contrEquiv1 _ k rfl rfl).symm c) = ix3 b c j := by
    funext ax; apply Fin.ext
    match ax with
    | ⟨0, _⟩ => simp [DotDims.rhsIdx]; rfl
    | ⟨1, _⟩ => simp [DotDims.rhsIdx]; exact c2
    | ⟨2, _⟩ => simp [DotDims.rhsIdx]; rfl
  rw [l2, r2]

end Cert.LibBatchForms

end
-- ==== Proof.LibRowForms.lean ====
/-
  Matrices and vectors read at an index through the layout operations a keep-dimensions row sum and a
  stacked weight matrix need: a vector cast to a column, a column broadcast along the rows, the sum over the
  columns of a matrix at a row, and three matrices of one shape laid side by side, read in each third.
  Stated over literal-extent index constructors (`ix1`, `ix2`), for any extents.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowForms

open Idealize.ShloMosaic Idealize.ShloMosaic.ValueIdx
open scoped BigOperators

variable {α : Type}

/-- An `[a]` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals, the vector unit's sum over the columns of an `[a, b]` matrix is, at row `p`, the sum
    of that row's `b` entries. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- Three `[n, w]` matrices laid side by side into `[n, W]`: a column `q` of the first third reads the first
    matrix at that column, -/
theorem concat3_cols_first {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = j.val) :
    concatenate ⟨2, ![n, W]⟩ 1 [⟨⟨2, ![n, w]⟩, A⟩, ⟨⟨2, ![n, w]⟩, B⟩, ⟨⟨2, ![n, w]⟩, C⟩] h (ix2 r q) = A (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 0 (Nat.zero_lt_succ _) _ A rfl rfl 0 rfl (ix2 r j)
    (fun b hb => by
      match b with
      | ⟨0, _⟩ => rfl
      | ⟨1, _⟩ => exact absurd rfl hb)
    (by show 0 + j.val = q.val; omega)

/-- a column `w + j` of the second third the second matrix at column `j`, -/
theorem concat3_cols_second {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + j.val) :
    concatenate ⟨2, ![n, W]⟩ 1 [⟨⟨2, ![n, w]⟩, A⟩, ⟨⟨2, ![n, w]⟩, B⟩, ⟨⟨2, ![n, w]⟩, C⟩] h (ix2 r q) = B (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 1 (Nat.succ_lt_succ (Nat.zero_lt_succ _)) _ B rfl rfl w (by simp) (ix2 r j)
    (fun b hb => by
      match b with
      | ⟨0, _⟩ => rfl
      | ⟨1, _⟩ => exact absurd rfl hb)
    (by show w + j.val = q.val; omega)

/-- and a column `2 w + j` of the last third the third matrix at column `j`. -/
theorem concat3_cols_third {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + w + j.val) :
    concatenate ⟨2, ![n, W]⟩ 1 [⟨⟨2, ![n, w]⟩, A⟩, ⟨⟨2, ![n, w]⟩, B⟩, ⟨⟨2, ![n, w]⟩, C⟩] h (ix2 r q) = C (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 2 (Nat.succ_lt_succ (Nat.succ_lt_succ (Nat.zero_lt_succ _))) _ C rfl rfl (w + w) (by simp) (ix2 r j)
    (fun b hb => by
      match b with
      | ⟨0, _⟩ => rfl
      | ⟨1, _⟩ => exact absurd rfl hb)
    (by show w + w + j.val = q.val; omega)

end Cert.LibRowForms

end
-- ==== Proof.KernelEntry.lean ====
/-
  What the region finds in its two operand arrays, read at an index.

  Before the kernel is launched the host flattens the two leading axes of the signal, [128, 12, 32768] → [1536, 32768]
  (row `a · 12 + b` is row `(a, b)`), and turns the starts into a column [1536, 1] of floor remainders by the row
  length: the starts flattened to [1536], each word taken to its floor remainder by 32768, the vector cast to a column.
-/
import proofs.«121256_j27084063769080_2_alg».proof.Proof.KernelIdealFrameP
import proofs.«121256_j27084063769080_2_alg».proof.Proof.Spec
import proofs.«121256_j27084063769080_2_alg».proof.Proof.LibBatchForms
import proofs.«121256_j27084063769080_2_alg».proof.Proof.LibRowForms
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Cert.KernelIdeal.GenP Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The host's floor remainder by the row length, on a vector of 1536 words: the truncated remainder by the guarded
    divisor, with the divisor added back where the remainder is nonzero and of the other sign. -/
def wrapVec (x : IVec S1536 32) : IVec S1536 32 :=
  select
    (andi
      (cmpi .ne
        (cmpi .slt
          (Host.remsi x (broadcastInDim S1536 ![] Facts₀.bcast_S_S1536
            (select (cmpi .eq (id (constantI S_ 32 32768#32)) (constantI S_ 32 0#32)) (constantI S_ 32 1#32) (id (constantI S_ 32 32768#32)))))
          (broadcastInDim S1536 ![] Facts₀.bcast_S_S1536 (constantI S_ 32 0#32)))
        (broadcastInDim S1536 ![] Facts₀.bcast_S_S1536
          (cmpi .slt
            (select (cmpi .eq (id (constantI S_ 32 32768#32)) (constantI S_ 32 0#32)) (constantI S_ 32 1#32) (id (constantI S_ 32 32768#32)))
            (constantI S_ 32 0#32))))
      (cmpi .ne
        (Host.remsi x (broadcastInDim S1536 ![] Facts₀.bcast_S_S1536
          (select (cmpi .eq (id (constantI S_ 32 32768#32)) (constantI S_ 32 0#32)) (constantI S_ 32 1#32) (id (constantI S_ 32 32768#32)))))
        (broadcastInDim S1536 ![] Facts₀.bcast_S_S1536 (constantI S_ 32 0#32))))
    (addi
      (Host.remsi x (broadcastInDim S1536 ![] Facts₀.bcast_S_S1536
        (select (cmpi .eq (id (constantI S_ 32 32768#32)) (constantI S_ 32 0#32)) (constantI S_ 32 1#32) (id (constantI S_ 32 32768#32)))))
      (broadcastInDim S1536 ![] Facts₀.bcast_S_S1536
        (select (cmpi .eq (id (constantI S_ 32 32768#32)) (constantI S_ 32 0#32)) (constantI S_ 32 1#32) (id (constantI S_ 32 32768#32)))))
    (Host.remsi x (broadcastInDim S1536 ![] Facts₀.bcast_S_S1536
      (select (cmpi .eq (id (constantI S_ 32 32768#32)) (constantI S_ 32 0#32)) (constantI S_ 32 1#32) (id (constantI S_ 32 32768#32)))))

/-- Entry by entry it is the word-level floor remainder. -/
theorem wrapVec_apply (x : IVec S1536 32) (i : S1536.Idx) : wrapVec x i = Cert.TimeMask.wrap (x i) := rfl

/-- The flattened signal the region finds. -/
theorem V_v3 (c : Dev nD) : (V m c main_v3 : S1536x32768.Idx → Ideal .f32)
    = shapeCast S1536x32768 (m ((c : Thread nD τ).loc main_arg0)) Facts₀.shapeCasts_S128x12x32768_S1536x32768 := by
  dsimp only [V, V0]
  simp only [hostOps0, hostOps0_1, hostOps0_2, List.flatten_cons, List.flatten_nil, List.append_nil, List.cons_append, List.nil_append]
  after_results
  rfl

/-- The column of wrapped starts the region finds. -/
theorem V_v2 (c : Dev nD) : (V m c main_v2 : S1536x1.Idx → BitVec 32)
    = shapeCast S1536x1 (wrapVec (shapeCast S1536 (m ((c : Thread nD τ).loc main_arg1)) Facts₀.shapeCasts_S128x12_S1536))
        Facts₀.shapeCasts_S1536_S1536x1 := by
  dsimp only [V, V0]
  simp only [hostOps0, hostOps0_1, hostOps0_2, List.flatten_cons, List.flatten_nil, List.append_nil, List.cons_append, List.nil_append]
  after_results_simp
  rfl

/-- Row `a · 12 + b` of the flattened signal is row `(a, b)` of the signal. -/
theorem V_v3_apply (c : Dev nD) (a : Fin 128) (b : Fin 12) (l : Fin 32768) (r : Fin 1536) (hr : r.val = a.val * 12 + b.val) :
    (V m c main_v3 : S1536x32768.Idx → Ideal .f32) (ix2 r l) = m ((c : Thread nD τ).loc main_arg0) (ix3 a b l) := by
  rw [V_v3]
  exact Cert.LibBatchForms.shapeCast_merge_apply _ _ a b l r hr

/-- Row `a · 12 + b` of the column is the floor remainder of the start of row `(a, b)`. -/
theorem V_v2_apply (c : Dev nD) (a : Fin 128) (b : Fin 12) (r : Fin 1536) (hr : r.val = a.val * 12 + b.val) :
    (V m c main_v2 : S1536x1.Idx → BitVec 32) (ix2 r (0 : Fin 1))
      = Cert.TimeMask.wrap (m ((c : Thread nD τ).loc main_arg1) (ix2 a b)) := by
  rw [V_v2]
  refine (Cert.LibRowForms.shapeCast_a_a1_apply _ _ r (0 : Fin 1)).trans ?_
  rw [wrapVec_apply]
  refine congrArg Cert.TimeMask.wrap ?_
  refine shapeCast_apply _ _ _ _ ?_
  show ((⟨2, ![128, 12]⟩ : Shape).rowMajor (ix2 a b)).val = ((⟨1, ![1536]⟩ : Shape).rowMajor (ix1 r)).val
  rw [Shape.rowMajor_val_two, Shape.rowMajor_val_one]
  show a.val * 12 + b.val = r.val
  exact hr.symm

end Cert.KernelIdeal.Entry

end
-- ==== Proof.WordLemmas.lean ====
/-
  The 32-bit word arithmetic of the circular time mask.

  The row length 32768 = 2^15 divides 2^32, so the floor remainder by it of a word read signed is the word's low
  15 bits; the difference of two words of [0, 32768) lies in (-32768, 32768), so adding the row length once
  when it is negative gives its floor remainder; and a block offset j * 4096 plus a lane q below 4096 does not
  wrap for j below 8.
-/
import proofs.«121256_j27084063769080_2_alg».proof.Proof.Spec
import Idealize.ShloMosaic.Lib.Affine

namespace Cert.TimeMask

open Idealize.ShloMosaic

/-- The guarded divisor is the row length itself: 32768 is not zero. -/
theorem modulus_eq : modulus = 32768#32 := by decide

/-- The truncated remainder by 32768, read unsigned: of a nonnegative word its unsigned remainder; of a negative
    word x the negation of the remainder of -x. -/
private theorem srem_row (x : BitVec 32) :
    (x.srem 32768#32).toNat =
      if 2 * x.toNat < 2 ^ 32 then x.toNat % 32768
      else (2 ^ 32 - (2 ^ 32 - x.toNat) % 32768) % 2 ^ 32 := by
  rw [BitVec.srem_eq]
  have hy : (32768#32 : BitVec 32).msb = false := by decide
  rw [hy]
  by_cases hx : 2 * x.toNat < 2 ^ 32
  · have hm : x.msb = false := BitVec.msb_eq_false_iff_two_mul_lt.mpr hx
    rw [hm, if_pos hx]
    show (x % 32768#32).toNat = _
    rw [BitVec.toNat_umod]; rfl
  · have hm : x.msb = true := BitVec.msb_eq_true_iff_two_mul_ge.mpr (by omega)
    rw [hm, if_neg hx]
    show (-((-x) % 32768#32)).toNat = _
    rw [BitVec.toNat_neg, BitVec.toNat_umod, BitVec.toNat_neg]
    have : (32768#32 : BitVec 32).toNat = 32768 := rfl
    rw [this]
    have hlt := x.isLt
    omega

/-- A one-bit word that is not 0 is 1. -/
private theorem bit_ne_zero (c : BitVec 1) : c ≠ 0#1 ↔ c = 1#1 := by revert c; decide

/-- A word tests negative exactly when its top bit is set. -/
private theorem neg_iff (r : BitVec 32) : IntOp.cmpi .slt r 0#32 = 1#1 ↔ 2 ^ 32 ≤ 2 * r.toNat := by
  rw [IntOp.cmpi_slt, show (0#32 : BitVec 32).toInt = 0 from rfl]; exact BitVec.toInt_neg_iff

/-- The sign fix of the floor remainder, read unsigned: a negative remainder (which is then nonzero) gets the row
    length added, wrapping; a nonnegative one is kept. -/
private theorem floor_fix (r : BitVec 32) :
    (Scalar.select
      (IntOp.andi (IntOp.cmpi .ne (IntOp.cmpi .slt r 0#32) 0#1) (IntOp.cmpi .ne r 0#32))
      (IntOp.addi r 32768#32) r).toNat
      = if 2 * r.toNat < 2 ^ 32 then r.toNat else (r.toNat + 32768) % 2 ^ 32 := by
  unfold Scalar.select
  split
  · rename_i h
    have h' := IntOp.andi_eq_one.mp h
    have h1 := (neg_iff r).mp ((bit_ne_zero _).mp (IntOp.cmpi_ne.mp h'.1))
    rw [if_neg (by omega)]
    show (r + 32768#32).toNat = _
    rw [BitVec.toNat_add]; rfl
  · rename_i h
    by_cases hn : 2 * r.toNat < 2 ^ 32
    · rw [if_pos hn]
    · exfalso
      apply h
      refine IntOp.andi_eq_one.mpr ⟨IntOp.cmpi_ne.mpr ((bit_ne_zero _).mpr ((neg_iff r).mpr (by omega))), IntOp.cmpi_ne.mpr ?_⟩
      intro h0
      rw [h0] at hn
      exact hn (by decide)

/-- The floor remainder by 2^15 of a 32-bit word read signed is its low 15 bits, since 2^15 divides 2^32. -/
theorem wrap_eq (x : BitVec 32) : wrap x = BitVec.ofNat 32 (x.toNat % 32768) := by
  have hr : IntOp.remsi .host x 32768#32 = x.srem 32768#32 := IntOp.remsi_of_pos _ (by decide)
  have hc0 : IntOp.cmpi .slt (32768#32) 0#32 = 0#1 := by decide
  unfold wrap
  rw [modulus_eq, hr, hc0]
  apply BitVec.eq_of_toNat_eq
  rw [floor_fix, srem_row, BitVec.toNat_ofNat]
  have hlt := x.isLt
  split <;> split <;> omega

/-- Two words of [0, 32768) differ by more than -32768: adding the row length once to a negative difference is
    the floor remainder of the difference, and wrapping the subtrahend first does not change that remainder. -/
theorem fixup_wrap (p : ℕ) (hp : p < 32768) (s : BitVec 32) :
    fixup (BitVec.ofNat 32 p) (wrap s) = wrap (IntOp.subi (BitVec.ofNat 32 p) s) := by
  rw [wrap_eq, wrap_eq]
  have hlt := s.isLt
  have hd : (IntOp.subi (BitVec.ofNat 32 p) (BitVec.ofNat 32 (s.toNat % 32768))).toNat
      = (2 ^ 32 - s.toNat % 32768 + p) % 2 ^ 32 := by
    show (BitVec.ofNat 32 p - BitVec.ofNat 32 (s.toNat % 32768)).toNat = _
    rw [BitVec.toNat_sub, BitVec.toNat_ofNat, BitVec.toNat_ofNat]
    rw [Nat.mod_eq_of_lt (show s.toNat % 32768 < 2 ^ 32 by omega), Nat.mod_eq_of_lt (show p < 2 ^ 32 by omega)]
  have he : (IntOp.subi (BitVec.ofNat 32 p) s).toNat = (2 ^ 32 - s.toNat + p) % 2 ^ 32 := by
    show (BitVec.ofNat 32 p - s).toNat = _
    rw [BitVec.toNat_sub, BitVec.toNat_ofNat, Nat.mod_eq_of_lt (show p < 2 ^ 32 by omega)]
  unfold fixup Scalar.select
  apply BitVec.eq_of_toNat_eq
  rw [BitVec.toNat_ofNat, he]
  split
  · rename_i h
    have h1 := (neg_iff _).mp h
    show (_ + 32768#32).toNat = _
    rw [BitVec.toNat_add, show (32768#32 : BitVec 32).toNat = 32768 from rfl]
    rw [hd] at h1 ⊢
    omega
  · rename_i h
    have h1 : ¬ (2 ^ 32 ≤ 2 * _) := fun hh => h ((neg_iff _).mpr hh)
    rw [hd] at h1 ⊢
    omega

/-- The position word of lane q of block j: j * 4096 + q is below 2^15, so neither the product nor the sum wraps. -/
theorem pos_word (j : ℕ) (hj : j < 8) (q : ℕ) (hq : q < 4096) :
    IntOp.addi (BitVec.ofNat 32 q) (Scalar.muli (BitVec.ofNat 32 j) 4096#32) = BitVec.ofNat 32 (j * 4096 + q) := by
  apply BitVec.eq_of_toNat_eq
  show (BitVec.ofNat 32 q + BitVec.ofNat 32 j * 4096#32).toNat = _
  rw [BitVec.toNat_add, BitVec.toNat_mul, BitVec.toNat_ofNat, BitVec.toNat_ofNat, BitVec.toNat_ofNat, BitVec.toNat_ofNat,
    Nat.mod_eq_of_lt (show q < 2 ^ 32 by omega), Nat.mod_eq_of_lt (show j < 2 ^ 32 by omega),
    show 4096 % 2 ^ 32 = 4096 from rfl]
  omega

end Cert.TimeMask
-- ==== Proof.KernelPayload.lean ====
/-
  The kernel body's one stored value, read at an index (r, q) of its [256, 4096] block, as a function of its two
  loads: the start word of row r and the signal at (r, q). The position word of lane q in block column j is
  j * 4096 + q; the stored value keeps the signal where the once-fixed difference of the position and the start word
  is at least a quarter row, and is zero elsewhere.
-/
import proofs.«121256_j27084063769080_2_alg».proof.Proof.Gen.KernelIdeal.Skeleton
import proofs.«121256_j27084063769080_2_alg».proof.Proof.Spec
import proofs.«121256_j27084063769080_2_alg».proof.Proof.WordLemmas
import proofs.«121256_j27084063769080_2_alg».proof.Proof.LibRowForms
import Idealize.ShloMosaic.Lib.ValueIdx
import Idealize.ShloMosaic.Lib.Pipeline.Value

noncomputable section

namespace Cert.KernelIdeal.PayValue

open Idealize.ShloMosaic Idealize.ShloMosaic.ValueIdx
open Cert.KernelIdeal Cert.KernelIdeal.Gen

/-- The lane counter along the columns plus the block's column offset is the position in the row. -/
theorem pos_apply (i : grid0.Coords) (r : Fin 256) (q : Fin 4096) :
    IntOp.addi (iota .tc S256x4096 32 [1] iota_S256x4096_d1_w32 (ix2 r q))
        (Scalar.muli (BitVec.ofNat 32 (i 1).val) 4096#32)
      = BitVec.ofNat 32 ((i 1).val * 4096 + q.val) := by
  have hj : (i 1).val < 8 := (i 1).isLt
  have hio : iota .tc S256x4096 32 [1] iota_S256x4096_d1_w32 (ix2 r q) = BitVec.ofNat 32 q.val :=
    iota_single_apply .tc S256x4096 32 1 iota_S256x4096_d1_w32 (ix2 r q)
  rw [hio]
  exact Cert.TimeMask.pos_word _ hj _ q.isLt

/-- The start column, cast to its own shape and broadcast along the lanes, reads the start word of the row. -/
theorem start_apply (v4 : Vec Ideal S256x1 .i32) (r : Fin 256) (q : Fin 4096) :
    broadcastTo S256x4096 (shapeCast S256x1 v4 shapeCasts_S256x1_S256x1) broadcasts_S256x1_S256x4096 (ix2 r q)
      = v4 (ix2 r (0 : Fin 1)) := by
  rw [shapeCast_self]
  exact Cert.LibRowForms.broadcastTo_a1_ab_apply v4 broadcasts_S256x1_S256x4096 r q

/-- The stored value at (r, q): the signal where the once-fixed difference of the position word and the row's start
    word is at least 8192, zero elsewhere. Each elementwise operation reads through at the index by definition; the
    three shape operations and the position word are the lemmas above. -/
theorem pay_apply (i : grid0.Coords) (v4 : Vec Ideal S256x1 .i32) (v15 : Vec Ideal S256x4096 .f32) (r : Fin 256) (q : Fin 4096) :
    k0_pay1 (F := Ideal) i v4 v15 (ix2 r q)
      = Scalar.select (IntOp.cmpi .sge (Cert.TimeMask.fixup (BitVec.ofNat 32 ((i 1).val * 4096 + q.val)) (v4 (ix2 r (0 : Fin 1)))) 8192#32)
          (v15 (ix2 r q)) (Ideal.ofBits .f32 0x00000000#32) := by
  have e : k0_pay1 (F := Ideal) i v4 v15 (ix2 r q)
      = Scalar.select (IntOp.cmpi .sge (Cert.TimeMask.fixup
            (IntOp.addi (iota .tc S256x4096 32 [1] iota_S256x4096_d1_w32 (ix2 r q)) (Scalar.muli (BitVec.ofNat 32 (i 1).val) 4096#32))
            (broadcastTo S256x4096 (shapeCast S256x1 v4 shapeCasts_S256x1_S256x1) broadcasts_S256x1_S256x4096 (ix2 r q))) 8192#32)
          (shapeCast S256x4096 v15 shapeCasts_S256x4096_S256x4096 (ix2 r q)) (Ideal.ofBits .f32 0x00000000#32) := rfl
  rw [e, pos_apply, start_apply, shapeCast_self]

end Cert.KernelIdeal.PayValue

end
-- ==== Proof.KernelBlocks.lean ====
/-
  The output array after the region: the row mask of the flattened signal and the column of wrapped starts.

  The grid has 6 × 8 points; point `(p, s)` reads rows `256 p … 256 p + 255` of the signal at columns
  `4096 s … 4096 s + 4095`, the same rows of the starts' column, and writes the same rectangle of the output. Its
  stored value at `(r, q)` keeps the signal's entry exactly when the one-step fixup of `(4096 s + q) - start` is at
  least 8192, and `4096 s + q` is that entry's column in the array. The 48 rectangles tile the array, so the array
  ends at one function of the two arrays the region finds.
-/
import proofs.«121256_j27084063769080_2_alg».proof.Proof.KernelIdealFrameP
import proofs.«121256_j27084063769080_2_alg».proof.Proof.Spec
import proofs.«121256_j27084063769080_2_alg».proof.Proof.KernelPayload
import Idealize.ShloMosaic.Lib.Pipeline.Value
import Idealize.ShloMosaic.Lib.ValueIdx

noncomputable section
namespace Cert.KernelIdeal.BlockValue
open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

open Cert.KernelIdeal.PayValue

variable (m : (ℓ : Loc nD τ sig) → Buf (Elt Ideal) ℓ)

/-- The masked signal in its [1536, 32768] view at row `r`, column `l`. -/
def rowMaskAt (X : S1536x32768.Idx → Ideal .f32) (S : S1536x1.Idx → BitVec 32) (r : Fin 1536) (l : Fin 32768) : Ideal .f32 :=
  Scalar.select (IntOp.cmpi .sge (Cert.TimeMask.fixup (BitVec.ofNat 32 l.val) (S (ix2 r (0 : Fin 1)))) 8192#32)
    (X (ix2 r l)) (Ideal.ofBits .f32 0x00000000#32)

/-- The masked signal in its [1536, 32768] view. -/
def rowMask (X : S1536x32768.Idx → Ideal .f32) (S : S1536x1.Idx → BitVec 32) : S1536x32768.Idx → Ideal .f32 :=
  fun i => rowMaskAt X S (i 0) (i 1)

/-- The body's accesses start at the origin of their buffers. -/
theorem hz : (![0, 0] : Fin 2 → Nat) = fun _ => 0 := funext fun a => by fin_cases a <;> rfl

/-- The printed index maps over the grid: the signal's block and the output's block have the same block index, the
    starts' block the same row index and column index 0, the output's column index is the point's second coordinate,
    and the output's block indices stay below 6 and 8. -/
theorem idx_facts : ∀ t : Fin cfg0.N,
    win0_0.index t (0 : Fin 2) = win0_2.index t (0 : Fin 2) ∧ win0_0.index t (1 : Fin 2) = win0_2.index t (1 : Fin 2)
    ∧ win0_1.index t (0 : Fin 2) = win0_2.index t (0 : Fin 2) ∧ win0_1.index t (1 : Fin 2) = 0
    ∧ win0_2.index t (1 : Fin 2) = (grid0.coords t 1).val
    ∧ win0_2.index t (0 : Fin 2) ≤ 5 ∧ win0_2.index t (1 : Fin 2) ≤ 7 :=
  (by decide +kernel : ∀ t : Fin grid0.N, _)

/-- Every block of the array is some point's. -/
theorem idx_onto : ∀ (q0 : Fin 6) (q1 : Fin 8), ∃ t : Fin cfg0.N, win0_2.index t = ![q0.val, q1.val] :=
  (by decide +kernel : ∀ (q0 : Fin 6) (q1 : Fin 8), ∃ t : Fin grid0.N, win0_2.index t = ![q0.val, q1.val])

/-- One stored entry of a block is the row mask at the array index it lands on. -/
theorem pay_eq_rowMask (i : grid0.Coords) (x0 : Vec Ideal S256x4096 .f32) (x1 : Vec Ideal S256x1 .i32)
    (X : S1536x32768.Idx → Ideal .f32) (S : S1536x1.Idx → BitVec 32) (j : S256x4096.Idx) (I : S1536x32768.Idx)
    (r : Fin 256) (q : Fin 4096) (R : Fin 1536) (L : Fin 32768) (hj : j = ix2 r q) (hI : I = ix2 R L)
    (hx0 : x0 j = X I) (hx1 : x1 (ix2 r (0 : Fin 1)) = S (ix2 R (0 : Fin 1))) (hcol : L.val = (i 1).val * 4096 + q.val) :
    k0_pay1 (F := Ideal) i x1 x0 j = rowMask X S I := by
  subst hj hI
  rw [pay_apply, hx0, hx1, ← hcol]
  rfl

/-- What point `t` writes back is block `t` of the row mask of the arrays the region finds: the signal's block and the
    output's block are the same rectangle, the starts' block is the same rows, and the block's column `q` is column
    `(t's second coordinate) · 4096 + q` of the array, which is the position the body computes. -/
theorem flushed_eq (c : Dev nD) (t : Fin cfg0.N) :
    (dats m 0 c).flushed 2 t = ((cfg0.win 2).blk t).view.read (Elt Ideal) (rowMask (V m c main_v3) (V m c main_v2)) := by
  show (cfg0.win 2).cut (grid0.coords t) ((dats m 0 c).after 2 t) = _
  rw [after0_2]
  unfold out0_2
  rw [View.canon_unit_zero hz]
  simp only [View.ld_unit_zero (S := S256x4096) hz, View.ld_unit_zero (S := S256x1) hz]
  obtain ⟨e0, e1, e2, e3, e4, e5, e6⟩ := idx_facts t
  funext j
  rw [View.read_apply]
  have hj0 : (j 0).val < 256 := (j 0).isLt
  have hj1 : (j 1).val < 4096 := (j 1).isLt
  refine Eq.trans (pay_eq_rowMask (grid0.coords t) (iblk m c 0 t) (iblk m c 1 t) (V m c main_v3) (V m c main_v2) j
    (((View.whole main_v4).slice ((win0 2).rect t)).emb j) ⟨(j 0).val, hj0⟩ ⟨(j 1).val, hj1⟩
    ⟨win0_2.index t (0 : Fin 2) * 256 + (j 0).val, by omega⟩ ⟨win0_2.index t (1 : Fin 2) * 4096 + (j 1).val, by omega⟩ ?_ ?_ ?_ ?_ ?_) ?_
  · funext a; apply Fin.ext
    match a with
    | ⟨0, _⟩ => rfl
    | ⟨1, _⟩ => rfl
  · funext a; apply Fin.ext
    match a with
    | ⟨0, _⟩ => show win0_2.index t (0 : Fin 2) * 256 + 1 * (j 0).val = win0_2.index t (0 : Fin 2) * 256 + (j 0).val; omega
    | ⟨1, _⟩ => show win0_2.index t (1 : Fin 2) * 4096 + 1 * (j 1).val = win0_2.index t (1 : Fin 2) * 4096 + (j 1).val; omega
  · show V m c main_v3 (((cfg0.win 0).blk t).view.emb j) = V m c main_v3 (((cfg0.win 2).blk t).view.emb j)
    refine congrArg _ ?_
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  · show V m c main_v2 (((cfg0.win 1).blk t).view.emb (ix2 (⟨(j 0).val, hj0⟩ : Fin 256) (0 : Fin 1))) = V m c main_v2 (ix2 (⟨win0_2.index t (0 : Fin 2) * 256 + (j 0).val, by omega⟩ : Fin 1536) (0 : Fin 1))
    refine congrArg _ ?_
    funext a; apply Fin.ext
    match a with
    | ⟨0, _⟩ => show win0_1.index t (0 : Fin 2) * 256 + 1 * (j 0).val = win0_2.index t (0 : Fin 2) * 256 + (j 0).val; omega
    | ⟨1, _⟩ => show win0_1.index t (1 : Fin 2) * 1 + 1 * 0 = 0; omega
  · show win0_2.index t (1 : Fin 2) * 4096 + (j 1).val = (grid0.coords t 1).val * 4096 + (j 1).val
    rw [e4]
  · exact (cast_eq _ _).symm

/-- An index of the array is in point `t`'s block iff each coordinate is in the block's range on its axis. -/
theorem mem_blk (t : Fin cfg0.N) (i : S1536x32768.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v4).slice (win0_2.rect t)).set ↔ _
  rw [View.set_slice_whole, Rect.mem_set_unit]
  exact Iff.rfl

/-- Every index of the array lies in the block of the point at (row / 256, column / 4096). -/
theorem cover (i : S1536x32768.Idx) :
    ∃ t : Fin cfg0.N, (cfg0.win 2).flush t = true ∧ i ∈ ((cfg0.win 2).blk t).view.set := by
  have hi0 : (i 0).val < 1536 := (i 0).isLt
  have hi1 : (i 1).val < 32768 := (i 1).isLt
  obtain ⟨t, ht⟩ := idx_onto ⟨(i 0).val / 256, by omega⟩ ⟨(i 1).val / 4096, by omega⟩
  have q0 : win0_2.index t (0 : Fin 2) = (i 0).val / 256 := congrFun ht 0
  have q1 : win0_2.index t (1 : Fin 2) = (i 1).val / 4096 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- The output array after the run is the row mask of the arrays the region finds. -/
theorem final (c : Dev nD) : (dats m 0 c).arrAt 2 cfg0.N = rowMask (V m c main_v3) (V m c main_v2) :=
  (dats m 0 c).arrAt_eq_of_cover 2 (rowMask (V m c main_v3) (V m c main_v2)) (fun t _ => flushed_eq m c t) cover

end Cert.KernelIdeal.BlockValue
end
-- ==== Proof.KernelRun.lean ====
/-
  The kernel's run, read as a value: its result array is the circular time mask of its two arguments.

  The region leaves the [1536, 32768] output array at the row mask of the flattened signal and the column of wrapped
  starts; the host then splits the rows back, [1536, 32768] → [128, 12, 32768] (row `a · 12 + b` becomes row `(a, b)`).
  At `(a, b, l)` the kernel's offset is the one-step fixup of `l - wrap (start)`, which is the floor remainder of the
  wrapped difference `l - start` because the row length 2^15 divides 2^32: the kernel keeps exactly the positions
  the reference keeps.
-/
import proofs.«121256_j27084063769080_2_alg».proof.Proof.KernelEntry
import proofs.«121256_j27084063769080_2_alg».proof.Proof.KernelBlocks
import proofs.«121256_j27084063769080_2_alg».proof.Proof.WordLemmas
import proofs.«121256_j27084063769080_2_alg».proof.Proof.LibBatchForms
import Idealize.ShloMosaic.Lib.StableHlo.Run
import Idealize.ShloMosaic.Lib.Pipeline.Value
import Idealize.ShloMosaic.Lib.ValueIdx

noncomputable section

namespace Cert.KernelIdeal.RunValue

open Cert.KernelIdeal Cert.KernelIdeal.Gen Cert.KernelIdeal.GenP Idealize.ShloMosaic Idealize.ShloMosaic.TcCoe Idealize.SL.Sem
open Idealize.ShloMosaic.StableHlo Idealize.ShloMosaic.ValueIdx
open Idealize.ShloMosaic.Pipeline (Dat)
open Cert.KernelIdeal.Entry Cert.KernelIdeal.BlockValue

variable (m : (ℓ : Loc nD τ sig) → Buf (Elt Ideal) ℓ) (ρ : Dev nD → PrngReg)

/-- After the region the host splits the rows of the output array back into `(a, b)`. -/
theorem out_tail (c : Dev nD) :
    (Pipeline.afterTail₀ cfgs (dats m) 0 (V0 m) [hostOps1] c main_v5 : S128x12x32768.Idx → Ideal .f32)
      = shapeCast S128x12x32768 ((dats m 0 c).arrAt 2 cfg0.N) Facts₀.shapeCasts_S1536x32768_S128x12x32768 := by
  unfold Pipeline.afterTail₀
  show StableHlo.after hostOps1 _ (Proc.devRef .tc main_v5) = _
  after_results
  have h := Pipeline.withArrays_arr spec0 launch0.win.arr_inj c (V0 m c) (fun w => (dats m 0 c).arrAt w cfg0.N) 2
  funext i
  exact congrArg (fun x => shapeCast S128x12x32768 x Facts₀.shapeCasts_S1536x32768_S128x12x32768 i) h

/-- The row mask of the arrays the region finds, at row `a · 12 + b`, is the circular time mask at `(a, b, ·)`. -/
theorem rowMask_entry (c : Dev nD) (a : Fin 128) (b : Fin 12) (l : Fin 32768) (r : Fin 1536) (hr : r.val = a.val * 12 + b.val) :
    rowMask (V m c main_v3) (V m c main_v2) (ix2 r l)
      = Cert.TimeMask.maskAt (m ((c : Thread nD τ).loc main_arg0)) (m ((c : Thread nD τ).loc main_arg1)) a b l := by
  show rowMaskAt (V m c main_v3) (V m c main_v2) r l = _
  unfold rowMaskAt Cert.TimeMask.maskAt Cert.TimeMask.keep
  rw [V_v3_apply m c a b l r hr, V_v2_apply m c a b r hr, Cert.TimeMask.fixup_wrap l.val l.isLt]

/-- The kernel's result array is the circular time mask of the arguments. -/
theorem out_eq (c : Dev nD) :
    (Pipeline.afterTail₀ cfgs (dats m) 0 (V0 m) [hostOps1] c main_v5 : S128x12x32768.Idx → Ideal .f32)
      = Cert.TimeMask.G (m ((c : Thread nD τ).loc main_arg0)) (m ((c : Thread nD τ).loc main_arg1)) := by
  rw [out_tail, final]
  funext i
  obtain ⟨a, b, l, rfl⟩ : ∃ (a : Fin 128) (b : Fin 12) (l : Fin 32768), i = ix3 a b l := ⟨i 0, i 1, i 2, eq_ix3 i⟩
  have ha := a.isLt
  have hb := b.isLt
  refine (Cert.LibBatchForms.shapeCast_split_apply _ _ a b l ⟨a.val * 12 + b.val, by omega⟩ rfl).trans ?_
  exact rowMask_entry m c a b l _ rfl

/-- Every weakly fair execution of the kernel's program terminates with the result array at the circular time mask of
    the argument arrays, and the arguments unchanged. -/
theorem run : θ_run (defs (F := Ideal)) (onTc (τ := τ) (main (F := Ideal))) ⟨m, fun _ => 0, ρ⟩ (fun r => ∀ c : Dev nD,
      r.2.mem ((c.tc : Thread nD τ).loc main_v5)
        = Cert.TimeMask.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 (Pipeline.mem_restRefs_of main_v5 (by decide) (by decide))).trans (out_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RunValue

end
-- ==== Proof.RefRun.lean ====
/-
  The reference's run, read back as one pure function of its two arguments.

  The reference is a straight line of thirty-four host operations once its three module-local functions are
  substituted at their calls: the position index along a row and the start words, both broadcast to the signal's
  shape, their difference, the floor remainder of that difference by the row length (the truncated remainder, with
  the divisor added back where it is nonzero and of the other sign), the comparison of that circular offset with a
  quarter of the row length, and the selection between the signal and a broadcast zero. Every buffer therefore ends at
  the fold of those operations over the launch contents; the fold at the result buffer is the composed term `out`,
  and the two argument buffers are written by no operation.
-/
import proofs.«121256_j27084063769080_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-! ## The composed term -/

/-- The position along the row, at every element of the signal's shape: an iota over the row, given two leading
    unit axes, then repeated over the rows. -/
def pos : IVec S128x12x32768 32 :=
  broadcastInDim S128x12x32768 ![0, 1, 2] bcast_S1x1x32768_S128x12x32768_0_1_2
    (broadcastInDim S1x1x32768 ![2] bcast_S32768_S1x1x32768_2 (iotaInDim S32768 32 0))

/-- The start word of each row, at every element of the signal's shape: a trailing unit axis, then repeated along
    the row. -/
def startAt (st : IVec S128x12 32) : IVec S128x12x32768 32 :=
  broadcastInDim S128x12x32768 ![0, 1, 2] bcast_S128x12x1_S128x12x32768_0_1_2
    (broadcastInDim S128x12x1 ![0, 1] bcast_S128x12_S128x12x1_0_1 st)

/-- The divisor of the remainder, a rank-zero tensor: the row length, replaced by one were it zero. -/
def divisor : IVec S_ 32 :=
  select (cmpi .eq (id (constantI S_ 32 32768#32)) (constantI S_ 32 0#32)) (constantI S_ 32 1#32)
    (id (constantI S_ 32 32768#32))

/-- The truncated remainder of `d` by the divisor, elementwise. -/
def truncRem (d : IVec S128x12x32768 32) : IVec S128x12x32768 32 :=
  Host.remsi d (broadcastInDim S128x12x32768 ![] bcast_S_S128x12x32768 divisor)

/-- The floor remainder of `d` by the divisor, elementwise: the truncated remainder, plus the divisor where the
    remainder's sign differs from the divisor's and the remainder is not zero. -/
def floorRem (d : IVec S128x12x32768 32) : IVec S128x12x32768 32 :=
  select
    (andi
      (cmpi .ne (cmpi .slt (truncRem d) (broadcastInDim S128x12x32768 ![] bcast_S_S128x12x32768 (constantI S_ 32 0#32)))
        (broadcastInDim S128x12x32768 ![] bcast_S_S128x12x32768 (cmpi .slt divisor (constantI S_ 32 0#32))))
      (cmpi .ne (truncRem d) (broadcastInDim S128x12x32768 ![] bcast_S_S128x12x32768 (constantI S_ 32 0#32))))
    (addi (truncRem d) (broadcastInDim S128x12x32768 ![] bcast_S_S128x12x32768 divisor))
    (truncRem d)

/-- What the reference computes from the signal `x` and the start words `st`: `x` where the circular offset of
    the position from the row's start is at least 8192, zero elsewhere. -/
def out (x : FVec F S128x12x32768 .f32) (st : IVec S128x12 32) : FVec F S128x12x32768 .f32 :=
  select
    (cmpi .sge (floorRem (subi pos (startAt st))) (broadcastInDim S128x12x32768 ![] bcast_S_S128x12x32768 (constantI S_ 32 8192#32)))
    x
    (broadcastInDim S128x12x32768 ![] bcast_S_S128x12x32768 (constant S_ .f32 0x00000000#32))

/-! ## The operations -/

/-- The reference's thirty-four operations in program order: the seven before the remainder; the remainder's
    twenty-one over its call's buffers (the fifth of them its inner selection of the divisor, over that call's own
    buffer); the four between the two calls; the final selection's two over its call's buffers. -/
abbrev ops : List (HloOp τ sig (Elt F)) :=
  [ nullary main_v0 (iotaInDim S32768 32 0),
    unary main_v0 main_v1 (broadcastInDim S1x1x32768 ![2] bcast_S32768_S1x1x32768_2 : (⟨S32768, .i32⟩ : BufTy).Contents (Elt F) → (⟨S1x1x32768, .i32⟩ : BufTy).Contents (Elt F)),
    unary main_arg1 main_v2 (broadcastInDim S128x12x1 ![0, 1] bcast_S128x12_S128x12x1_0_1 : (⟨S128x12, .i32⟩ : BufTy).Contents (Elt F) → (⟨S128x12x1, .i32⟩ : BufTy).Contents (Elt F)),
    unary main_v1 main_v3 (broadcastInDim S128x12x32768 ![0, 1, 2] bcast_S1x1x32768_S128x12x32768_0_1_2 : (⟨S1x1x32768, .i32⟩ : BufTy).Contents (Elt F) → (⟨S128x12x32768, .i32⟩ : BufTy).Contents (Elt F)),
    unary main_v2 main_v4 (broadcastInDim S128x12x32768 ![0, 1, 2] bcast_S128x12x1_S128x12x32768_0_1_2 : (⟨S128x12x1, .i32⟩ : BufTy).Contents (Elt F) → (⟨S128x12x32768, .i32⟩ : BufTy).Contents (Elt F)),
    binary main_v3 main_v4 main_v5 (subi : (⟨S128x12x32768, .i32⟩ : BufTy).Contents (Elt F) → (⟨S128x12x32768, .i32⟩ : BufTy).Contents (Elt F) → (⟨S128x12x32768, .i32⟩ : BufTy).Contents (Elt F)),
    nullary main_c (constantI S_ 32 32768#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S128x12x32768 ![] bcast_S_S128x12x32768),
    TRef.binary (.of main_v5 : TRef sig ⟨S128x12x32768, .i32⟩) main_call0.v3 main_call0.v4 Host.remsi,
    TRef.nullary main_call0.c_1 (constantI S_ 32 0#32),
    TRef.unary main_call0.c_1 main_call0.v5 (broadcastInDim S128x12x32768 ![] bcast_S_S128x12x32768),
    TRef.binary main_call0.v4 main_call0.v5 main_call0.v6 (cmpi .ne),
    TRef.nullary main_call0.c_2 (constantI S_ 32 0#32),
    TRef.unary main_call0.c_2 main_call0.v7 (broadcastInDim S128x12x32768 ![] bcast_S_S128x12x32768),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S128x12x32768 ![] bcast_S_S128x12x32768),
    TRef.binary main_call0.v8 main_call0.v10 main_call0.v11 (cmpi .ne),
    TRef.binary main_call0.v11 main_call0.v6 main_call0.v12 andi,
    TRef.unary main_call0.call0.v0 main_call0.v13 (broadcastInDim S128x12x32768 ![] bcast_S_S128x12x32768),
    TRef.binary main_call0.v4 main_call0.v13 main_call0.v14 addi,
    TRef.ternary main_call0.v12 main_call0.v14 main_call0.v4 main_call0.v15 select,
    nullary main_c_0 (constantI S_ 32 8192#32),
    unary main_c_0 main_v7 (broadcastInDim S128x12x32768 ![] bcast_S_S128x12x32768 : (⟨S_, .i32⟩ : BufTy).Contents (Elt F) → (⟨S128x12x32768, .i32⟩ : BufTy).Contents (Elt F)),
    binary main_v6 main_v7 main_v8 (cmpi .sge : (⟨S128x12x32768, .i32⟩ : BufTy).Contents (Elt F) → (⟨S128x12x32768, .i32⟩ : BufTy).Contents (Elt F) → (⟨S128x12x32768, .i1⟩ : BufTy).Contents (Elt F)),
    nullary main_cst (constant S_ .f32 0x00000000#32),
    TRef.unary (.of main_cst : TRef sig ⟨S_, .f32⟩) main_call1.v0 (broadcastInDim S128x12x32768 ![] bcast_S_S128x12x32768),
    TRef.ternary (.of main_v8 : TRef sig ⟨S128x12x32768, .i1⟩) (.of main_arg0 : TRef sig ⟨S128x12x32768, .f32⟩) main_call1.v0 main_call1.v1 select ]

-- thirty-four binds re-associated: the rewrite under the chain recurses once per statement
set_option maxRecDepth 1024 in
/-- The reference's entry function is that straight line: the three functions' definitions substituted at their calls
    and the calls' buffer records read at their fields, both sides are one chain of steps once sequencing is
    re-associated. -/
theorem main_eq (c : Dev nD) : main (F := F) c = seq ops := by
  simp only [main, fn_remainder.body, fn_where.body, fn_where_0.body, seq, bind_assoc, pure_bind]

attribute [local irreducible] broadcastInDim iotaInDim select cmpi subi andi addi Host.remsi constantI constant in
/-- The fold at the result buffer is `out` of the two arguments' contents: unrolled, each operation's result decides
    whether the buffer read is the one it writes, and the typed references' transports are the identity at these
    literal references. Only the chain of results is compared: the pure operations are kept folded meanwhile, so that
    none is evaluated at an element. -/
theorem out_eq (V : Valuation τ sig (Elt F)) :
    after ops V (main_v9 : DevRef τ sig) = out (V (main_arg0 : DevRef τ sig)) (V (main_arg1 : DevRef τ sig)) := by
  simp only [after_cons, after_nil]
  rfl

/-- No operation writes the signal's buffer. -/
theorem arg0_eq (V : Valuation τ sig (Elt F)) :
    after ops V (main_arg0 : DevRef τ sig) = V (main_arg0 : DevRef τ sig) := by
  simp only [after_cons, after_nil]
  rfl

/-- No operation writes the start words' buffer. -/
theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub ..,
    nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    nullary_bufs_sub .., unary_bufs_sub .., binary_bufs_sub .., nullary_bufs_sub ..,
    unary_bufs_sub .., ternary_bufs_sub ..⟩

/-- At the compiled mesh, for any float values, from any memory with zero counters: every weakly fair execution of
    the reference on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefValue.lean ====
/-
  The reference's value: the composed term of its operations is the circular time mask, index by index.

  At an element `(a, b, l)` of the signal's shape the position index reads `l`, the broadcast start words read
  the row's start word, every broadcast rank-zero tensor reads its one element, the remainder's divisor reads the
  row length guarded against zero, and the remainder chain is therefore the floor remainder of the 32-bit
  difference of the two; the comparison with 8192 and the selection against the zero constant are the mask's.
-/
import proofs.«121256_j27084063769080_2_alg».proof.Proof.RefRun
import proofs.«121256_j27084063769080_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## The layout operations at an index -/

/-- A rank-zero tensor broadcast to the signal's shape reads, at every index, the tensor's one element. -/
theorem bcast0_apply {α : Type} (c : S_.Idx → α) (j : S128x12x32768.Idx) :
    broadcastInDim S128x12x32768 ![] bcast_S_S128x12x32768 c j = c ix0 :=
  broadcastInDim_apply _ _ _ _ _ (fun a => a.elim0)

/-- The position index at `(a, b, l)` is `l`. -/
theorem pos_apply (a : Fin 128) (b : Fin 12) (l : Fin 32768) : pos (ix3 a b l) = BitVec.ofNat 32 l.val := by
  unfold pos
  refine (broadcastInDim_apply _ _ _ _ (ix3 (0 : Fin 1) (0 : Fin 1) l) ?_).trans ?_
  · intro d; fin_cases d <;> rfl
  refine (broadcastInDim_apply _ _ _ _ (ix1 l) ?_).trans rfl
  intro d; fin_cases d; rfl

/-- The broadcast start words at `(a, b, l)` are the start word of row `(a, b)`. -/
theorem startAt_apply (st : IVec S128x12 32) (a : Fin 128) (b : Fin 12) (l : Fin 32768) :
    startAt st (ix3 a b l) = st (ix2 a b) := by
  unfold startAt
  refine (broadcastInDim_apply _ _ _ _ (ix3 a b (0 : Fin 1)) ?_).trans ?_
  · intro d; fin_cases d <;> rfl
  refine broadcastInDim_apply _ _ _ _ (ix2 a b) ?_
  intro d; fin_cases d <;> rfl

/-! ## The remainder chain at an index -/

/-- The divisor's one element is the row length guarded against zero. -/
theorem divisor_apply (k : S_.Idx) : divisor k = Cert.TimeMask.modulus := rfl

/-- The truncated remainder at an index is the scalar one, by the guarded row length. -/
theorem truncRem_apply (d : IVec S128x12x32768 32) (j : S128x12x32768.Idx) :
    truncRem d j = IntOp.remsi .host (d j) Cert.TimeMask.modulus := by
  show IntOp.remsi .host (d j) (broadcastInDim S128x12x32768 ![] bcast_S_S128x12x32768 divisor j) = _
  rw [bcast0_apply, divisor_apply]

/-- The remainder chain at an index is the floor remainder of the element there. -/
theorem floorRem_apply (d : IVec S128x12x32768 32) (j : S128x12x32768.Idx) :
    floorRem d j = Cert.TimeMask.wrap (d j) := by
  unfold floorRem Cert.TimeMask.wrap
  simp only [select, cmpi, andi, addi, truncRem_apply]
  -- what is left differs only in the broadcast rank-zero tensors, each read at its one element
  rfl

/-! ## The value -/

/-- The reference's composed term at `(a, b, l)` is the masked signal there. -/
theorem out_apply (x : FVec Ideal S128x12x32768 .f32) (st : IVec S128x12 32) (a : Fin 128) (b : Fin 12) (l : Fin 32768) :
    out (F := Ideal) x st (ix3 a b l) = Cert.TimeMask.maskAt x st a b l := by
  unfold out Cert.TimeMask.maskAt Cert.TimeMask.keep
  simp only [select, cmpi, subi, floorRem_apply, pos_apply, startAt_apply]
  -- what is left differs only in the two broadcast constants, each read at its one element
  rfl

/-- The reference's composed term is the circular time mask of its two arguments. -/
theorem out_eq_G (x : FVec Ideal S128x12x32768 .f32) (st : IVec S128x12 32) :
    out (F := Ideal) x st = Cert.TimeMask.G x st :=
  funext fun i => (congrArg (out (F := Ideal) x st) (eq_ix3 i)).trans (out_apply x st (i 0) (i 1) (i 2))

/-- On every device, from any memory with zero counters: every weakly fair execution of the reference terminates
    with its result buffer at the circular time mask of the two arguments' launch contents, and the two arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9)
          = Cert.TimeMask.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨((h c main_v9).trans (out_eq _)).trans (out_eq_G _ _),
      (h c main_arg0).trans (arg0_eq _), (h c main_arg1).trans (arg1_eq _)⟩)
    (run_main m ρ)

end Cert.ReferenceIdeal.RefValue

end
-- ==== Proof.lean ====
/-
  A circular time mask: for a signal `x` of shape [128, 12, 32768] and one start word per row `(a, b)`, the positions
  `l` of the row whose circular offset `(l - start) mod 32768` is below 8192 are zeroed, the others kept.

  The reference computes the offset as the floor remainder by 32768 of the 32-bit difference `l - start`. The kernel
  first takes the floor remainder of the start itself (on the host), flattens the rows to [1536, 32768], and in each
  [256, 4096] block computes `l - start'` with `start'` in [0, 32768) and adds 32768 once when the difference is
  negative. Both are the residue of `l - start` modulo 2^15, because 2^15 divides 2^32: a floor remainder by 2^15 of a
  32-bit word is its low fifteen bits, whether or not the subtraction wrapped. The two programs therefore keep and
  zero the same entries, and on the kept entries both return the signal's own value: the results are equal as
  extended reals with no arithmetic on them at all, and the precondition is never opened.

  The modules: Spec (the mask as one function `G` of the two arrays), WordLemmas (the 32-bit facts), KernelPayload (the
  kernel body's stored value at an index), KernelEntry (what the region finds in its operand arrays), KernelBlocks
  (the blocks written back cover the output array, which ends at the row mask), KernelRun (the rows split back: the
  kernel's result is `G`), RefRun and RefValue (the reference's operations as a straight line, whose result is `G`).
  The frames of the two kernel programs are the frame certificates of KernelFrameP and KernelIdealFrameP; the
  reference's frame is its run with the result dropped. The idealization rewrote nothing, so it preserves trivially.
-/
import proofs.«121256_j27084063769080_2_alg».proof.Defs
import proofs.«121256_j27084063769080_2_alg».proof.Proof.Gen.Kernel
import proofs.«121256_j27084063769080_2_alg».proof.Proof.Gen.KernelIdeal
import proofs.«121256_j27084063769080_2_alg».proof.Proof.Gen.ReferenceIdeal
import proofs.«121256_j27084063769080_2_alg».proof.Proof.Gen.Pre_finite_inputs
import proofs.«121256_j27084063769080_2_alg».proof.Proof.KernelFrameP
import proofs.«121256_j27084063769080_2_alg».proof.Proof.KernelIdealFrameP
import proofs.«121256_j27084063769080_2_alg».proof.Proof.KernelRun
import proofs.«121256_j27084063769080_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the arguments both programs end with the circular time mask `G` of the arguments. -/
theorem algebraic : Cert.algebraic_KernelIdeal_ReferenceIdeal := by
  intro m ρ m' ρ' _ hagree
  refine ⟨fun c => Cert.TimeMask.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨?_, (h c).2⟩) (Cert.ReferenceIdeal.RefValue.run m' ρ')
  rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
